-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3 : Shape := ⟨3, ![32, 1024, 3]⟩
abbrev S_ : Shape := ⟨0, ![]⟩
abbrev S32x1024x1 : Shape := ⟨3, ![32, 1024, 1]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel
  slices_S32x1024x3_S32x1024x1_0_0_1 : S32x1024x3.Slices ![0, 0, 1] S32x1024x1
  bcast_S_S32x1024x1 : S_.BroadcastsInDim S32x1024x1 (![] : Fin 0 → Fin S32x1024x1.rank)
  reducesTo_S32x1024x1_S_d0_1_2 : S32x1024x1.ReducesTo [0, 1, 2] S_

variable [Facts]

def fn {F : FTy → Type} [FloatOps F] (main_arg0 : FVec F S32x1024x3 .f32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  let main_v4 : FVec F S32x1024x1 .f32 := (extractStridedSlice S32x1024x1 ![0, 0, 1] · slices_S32x1024x3_S32x1024x1_0_0_1) main_arg0
  let main_cst_0 : FVec F S_ .f32 := constant S_ .f32 0x3727C5AC#32
  let main_v5 : FVec F S32x1024x1 .f32 := broadcastInDim S32x1024x1 ![] bcast_S_S32x1024x1 main_cst_0
  let main_v6 : FVec F S32x1024x1 .f32 := addf main_v4 main_v5
  let main_cst_1 : FVec F S_ .f32 := constant S_ .f32 0x00000000#32
  let main_v7 : FVec F S32x1024x1 .f32 := broadcastInDim S32x1024x1 ![] bcast_S_S32x1024x1 main_cst_1
  let main_v8 : IVec S32x1024x1 1 := cmpf .une main_v6 main_v7
  let main_c_2 : IVec S_ 1 := constantI S_ 1 1#1
  let main_v9 : IVec S_ 1 := (fun x v => Host.reduce IntOp.andi x v reducesTo_S32x1024x1_S_d0_1_2 h_S_) main_v8 main_c_2
  let main_v10 : IVec S_ 1 := andi main_v3 main_v9
  main_v10
-- ==== Kernel.lean ====
abbrev S32x1024x3 : Shape := ⟨3, ![32, 1024, 3]⟩
abbrev S32x1024x2047 : Shape := ⟨3, ![32, 1024, 2047]⟩
abbrev S8x128x3 : Shape := ⟨3, ![8, 128, 3]⟩
abbrev S8x128x2047 : Shape := ⟨3, ![8, 128, 2047]⟩
abbrev S8x128x1 : Shape := ⟨3, ![8, 128, 1]⟩
abbrev S1x1x2047 : Shape := ⟨3, ![1, 1, 2047]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x3, .f32⟩
  | .hbm, ⟨1, _⟩ => ⟨S32x1024x2047, .f32⟩
  | .local _ .vmem, ⟨0, _⟩ => ⟨S8x128x3, .f32⟩
  | .local _ .vmem, ⟨1, _⟩ => ⟨S8x128x3, .f32⟩
  | .local _ .vmem, ⟨2, _⟩ => ⟨S8x128x2047, .f32⟩
  | .local _ .vmem, ⟨3, _⟩ => ⟨S8x128x2047, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2047 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x128x3_S8x128x1_0_0_0 : ∀ a, (![0, 0, 0] : Fin 3 → Nat) a + S8x128x1.size a ≤ S8x128x3.size a
  h_S8x128x1 : 0 < S8x128x1.numel
  inb_S8x128x3_S8x128x1_0_0_1 : ∀ a, (![0, 0, 1] : Fin 3 → Nat) a + S8x128x1.size a ≤ S8x128x3.size a
  inb_S8x128x3_S8x128x1_0_0_2 : ∀ a, (![0, 0, 2] : Fin 3 → Nat) a + S8x128x1.size a ≤ S8x128x3.size a
  iota_S1x1x2047_d2_w32 : S1x1x2047.Iotas .tc 32 [2]
  broadcasts_S1x1x2047_S8x128x2047 : S1x1x2047.Broadcasts S8x128x2047
  broadcasts_S8x128x1_S8x128x2047 : S8x128x1.Broadcasts S8x128x2047
  inb_S8x128x2047_S8x128x2047_0_0_0 : ∀ a, (![0, 0, 0] : Fin 3 → Nat) a + S8x128x2047.size a ≤ S8x128x2047.size a
  h_S8x128x2047 : 0 < S8x128x2047.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3.size a ≤ S32x1024x3.size a
  hwx0_0 : ∀ i : grid0.Coords, EltTy.bits .f32 = 32 ∨ (Rect.block (s := S32x1024x3) S8x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x2047.size a ≤ S32x1024x2047.size a
  hwx0_1 : ∀ i : grid0.Coords, EltTy.bits .f32 = 32 ∨ (Rect.block (s := S32x1024x2047) S8x128x2047.size (cc0_transform_1 i) (hinb0_1 i)).WholeWords (EltTy.packing .f32)

variable [Facts₀]

abbrev win0_0 : Pipeline.Window sig grid0 :=
  Pipeline.Window.ofSpec (Memref.whole main_arg0) S8x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128x2047.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x3 : Shape := ⟨3, ![32, 1024, 3]⟩
abbrev S2047 : Shape := ⟨1, ![2047]⟩
abbrev S_ : Shape := ⟨0, ![]⟩
abbrev S32x1024x1 : Shape := ⟨3, ![32, 1024, 1]⟩
abbrev S1x1x2047 : Shape := ⟨3, ![1, 1, 2047]⟩
abbrev S32x1024x2047 : Shape := ⟨3, ![32, 1024, 2047]⟩

abbrev nBuf : Space → Nat
  | .hbm => 22
  | .vmem => 0
  | .smem => 0
  | _ => 0

abbrev bufTy : (tb : Table) → Fin (tcTables nBuf tb) → BufTy
  | .hbm, ⟨0, _⟩ => ⟨S32x1024x3, .f32⟩
  | .hbm, ⟨1, _⟩ => ⟨S2047, .i32⟩
  | .hbm, ⟨2, _⟩ => ⟨S_, .i32⟩
  | .hbm, ⟨3, _⟩ => ⟨S2047, .i32⟩
  | .hbm, ⟨4, _⟩ => ⟨S2047, .i32⟩
  | .hbm, ⟨5, _⟩ => ⟨S2047, .f32⟩
  | .hbm, ⟨6, _⟩ => ⟨S32x1024x1, .f32⟩
  | .hbm, ⟨7, _⟩ => ⟨S32x1024x1, .f32⟩
  | .hbm, ⟨8, _⟩ => ⟨S32x1024x1, .f32⟩
  | .hbm, ⟨9, _⟩ => ⟨S1x1x2047, .f32⟩
  | .hbm, ⟨10, _⟩ => ⟨S32x1024x2047, .f32⟩
  | .hbm, ⟨11, _⟩ => ⟨S32x1024x2047, .f32⟩
  | .hbm, ⟨12, _⟩ => ⟨S32x1024x2047, .f32⟩
  | .hbm, ⟨13, _⟩ => ⟨S_, .f32⟩
  | .hbm, ⟨14, _⟩ => ⟨S32x1024x1, .f32⟩
  | .hbm, ⟨15, _⟩ => ⟨S32x1024x1, .f32⟩
  | .hbm, ⟨16, _⟩ => ⟨S32x1024x2047, .f32⟩
  | .hbm, ⟨17, _⟩ => ⟨S32x1024x2047, .f32⟩
  | .hbm, ⟨18, _⟩ => ⟨S32x1024x2047, .f32⟩
  | .hbm, ⟨19, _⟩ => ⟨S32x1024x2047, .f32⟩
  | .hbm, ⟨20, _⟩ => ⟨S32x1024x2047, .f32⟩
  | .hbm, ⟨21, _⟩ => ⟨S32x1024x2047, .f32⟩
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]

class Facts₀ : Prop where
  bcast_S_S2047 : S_.BroadcastsInDim S2047 (![] : Fin 0 → Fin S2047.rank)
  slices_S32x1024x3_S32x1024x1_0_0_0 : S32x1024x3.Slices ![0, 0, 0] S32x1024x1
  slices_S32x1024x3_S32x1024x1_0_0_1 : S32x1024x3.Slices ![0, 0, 1] S32x1024x1
  slices_S32x1024x3_S32x1024x1_0_0_2 : S32x1024x3.Slices ![0, 0, 2] S32x1024x1
  bcast_S2047_S1x1x2047_2 : S2047.BroadcastsInDim S1x1x2047 (![2] : Fin 1 → Fin S1x1x2047.rank)
  bcast_S1x1x2047_S32x1024x2047_0_1_2 : S1x1x2047.BroadcastsInDim S32x1024x2047 (![0, 1, 2] : Fin 3 → Fin S32x1024x2047.rank)
  bcast_S32x1024x1_S32x1024x2047_0_1_2 : S32x1024x1.BroadcastsInDim S32x1024x2047 (![0, 1, 2] : Fin 3 → Fin S32x1024x2047.rank)
  bcast_S_S32x1024x1 : S_.BroadcastsInDim S32x1024x1 (![] : Fin 0 → Fin S32x1024x1.rank)

variable [Facts₀]

class Facts : Prop extends Facts₀ where

variable [Facts]
-- ==== Proof.SpanScore.lean ====
/-
  The span score, entry by entry, on the extended reals.

  For a parameter array `x : [32, 1024, 3]` — row `(b, r)` holds a mean `x(b,r,0)`, a softness `x(b,r,1)` and an
  intercept `x(b,r,2)` — and the relative position `pos j = j − 1023` of column `j < 2047`, the score is

      score x (b, r, j) = −(q · q) + x(b,r,2),     q = (pos j + x(b,r,0)) / (x(b,r,1) + ε),

  with `ε` the single-precision word of `1e-5`, read as the real it encodes. That is the reference's spelling. The
  kernel computes the reciprocal of the divisor once per row and multiplies:

      tiled x (b, r, j) = x(b,r,2) − (p · p),      p = (pos j + x(b,r,0)) · (1 / (x(b,r,1) + ε)).

  On the extended reals a quotient `u / d` with `d ≠ 0` is `u · d⁻¹`, so `u · (1 / d) = u · (1 · d⁻¹) = u / d`; and
  `c − w = c + −w = −w + c` always. Hence the two spellings agree wherever the divisor is not zero (`tiled_eq_score`).
  At a zero divisor they do not: `1 / 0 = ⊤` and `0 · ⊤ = 0`, while `0 / 0 = ⊥`, so a row with softness `−ε` and an
  integer mean separates them — which is why the certificate's precondition keeps the divisor off zero.
-/
import Idealize.ShloMosaic.PureOps.Ideal
import Idealize.ShloMosaic.Lib.ValueIdx

noncomputable section

namespace Cert.SpanScore

open Idealize.ShloMosaic Idealize.ShloMosaic.ValueIdx

/-- The parameter array's index set, `[32, 1024, 3]`. -/
abbrev PIdx : Type := (⟨3, ![32, 1024, 3]⟩ : Shape).Idx
/-- The score array's index set, `[32, 1024, 2047]`. -/
abbrev SIdx : Type := (⟨3, ![32, 1024, 2047]⟩ : Shape).Idx

/-- `ε`: the single-precision word of `1e-5`, as the extended real it encodes. -/
abbrev eps : EReal := Ideal.ofBits .f32 0x3727C5AC#32

/-- The relative position of column `j`: the 32-bit word `j − 1023`, read signed, as an extended real. -/
def pos (j : Fin 2047) : EReal := FloatOps.sitofp (F := Ideal) .f32 (IntOp.subi (BitVec.ofNat 32 j.val) 1023#32)

/-- The divisor of row `(b, r)`: its softness plus `ε`. -/
def divisor (x : PIdx → EReal) (b : Fin 32) (r : Fin 1024) : EReal := x (ix3 b r 1) + eps

/-- The score from a numerator `u`, a divisor `d` and an intercept `c`, the quotient taken entry by entry. -/
def quot (u d c : EReal) : EReal := -(Ideal.div u d * Ideal.div u d) + c

/-- The same from the reciprocal of the divisor, taken once and multiplied in. -/
def recip (u d c : EReal) : EReal := c - (u * Ideal.div 1 d) * (u * Ideal.div 1 d)

/-- Off a zero divisor the two are one value: `u · (1 / d) = u / d`, and `c − w = −w + c`. -/
theorem recip_eq_quot (u d c : EReal) (hd : d ≠ 0) : recip u d c = quot u d c := by
  unfold recip quot Ideal.div
  simp only [if_neg hd, one_mul]
  rw [sub_eq_add_neg, add_comm]

/-- The score at `(b, r, j)`, the reference's spelling. -/
def scoreAt (x : PIdx → EReal) (b : Fin 32) (r : Fin 1024) (j : Fin 2047) : EReal :=
  quot (pos j + x (ix3 b r 0)) (divisor x b r) (x (ix3 b r 2))

/-- The score at `(b, r, j)`, the kernel's spelling. -/
def tiledAt (x : PIdx → EReal) (b : Fin 32) (r : Fin 1024) (j : Fin 2047) : EReal :=
  recip (pos j + x (ix3 b r 0)) (divisor x b r) (x (ix3 b r 2))

/-- The score array. -/
def score (x : PIdx → EReal) : SIdx → EReal := fun i => scoreAt x (i 0) (i 1) (i 2)

/-- The array the kernel's tiles make up. -/
def tiled (x : PIdx → EReal) : SIdx → EReal := fun i => tiledAt x (i 0) (i 1) (i 2)

/-- Where no row's divisor is zero, the tiled array is the score array. -/
theorem tiled_eq_score (x : PIdx → EReal) (hd : ∀ b r, divisor x b r ≠ 0) : tiled x = score x :=
  funext fun i => recip_eq_quot _ _ _ (hd (i 0) (i 1))

end Cert.SpanScore

end
-- ==== Proof.RefScore.lean ====
/-
  The reference's last stage is the score array.

  Read one entry `(b, r, j)` at a time, the reference's operations compose to

      −(q · q) + x(b,r,2),   q = (pos j + x(b,r,0)) / (x(b,r,1) + ε):

  the position vector `iota − 1023` is broadcast along the two leading axes, so entry `(b, r, j)` reads its entry `j`;
  the three unit-width slices of the parameter array are broadcast along the last axis, so it reads their entry
  `(b, r, 0)`, which is the parameter array at `(b, r, 0)`, `(b, r, 1)`, `(b, r, 2)`.
-/
import proofs.«151536_j73976516706635_2_alg».proof.Proof.Gen.ReferenceIdeal.Read
import proofs.«151536_j73976516706635_2_alg».proof.Proof.SpanScore

noncomputable section

namespace Cert.RefScore

open Idealize.ShloMosaic Idealize.ShloMosaic.ValueIdx Cert.ReferenceIdeal Cert.ReferenceIdeal.Read Cert.SpanScore

/-- A broadcast along the last axis reads the column entry `(b, r, 0)`. -/
theorem col_idx (b : Fin 32) (r : Fin 1024) (j : Fin 2047) :
    idx_main_v9 (ix3 b r j) = (ix3 b r (0 : Fin 1) : S32x1024x1.Idx) :=
  funext fun a => Fin.ext (by match a with | ⟨0, _⟩ => rfl | ⟨1, _⟩ => rfl | ⟨2, _⟩ => rfl)

/-- The broadcast of the position vector along the leading axes reads `(0, 0, j)`, -/
theorem lane_idx (b : Fin 32) (r : Fin 1024) (j : Fin 2047) :
    idx_main_v8 (ix3 b r j) = (ix3 (0 : Fin 1) (0 : Fin 1) j : S1x1x2047.Idx) :=
  funext fun a => Fin.ext (by match a with | ⟨0, _⟩ => rfl | ⟨1, _⟩ => rfl | ⟨2, _⟩ => rfl)

/-- and that is entry `j` of the vector. -/
theorem vec_idx (j : Fin 2047) : idx_main_v7 (ix3 (0 : Fin 1) (0 : Fin 1) j) = (ix1 j : S2047.Idx) :=
  funext fun a => Fin.ext (by match a with | ⟨0, _⟩ => rfl)

/-- Entry `(b, r, 0)` of slice `k` is the parameter array at `(b, r, k)`. -/
theorem mean_idx (b : Fin 32) (r : Fin 1024) : idx_main_v4 (ix3 b r (0 : Fin 1)) = (ix3 b r (0 : Fin 3) : S32x1024x3.Idx) :=
  funext fun a => Fin.ext (by match a with | ⟨0, _⟩ => rfl | ⟨1, _⟩ => rfl | ⟨2, _⟩ => rfl)
theorem soft_idx (b : Fin 32) (r : Fin 1024) : idx_main_v5 (ix3 b r (0 : Fin 1)) = (ix3 b r (1 : Fin 3) : S32x1024x3.Idx) :=
  funext fun a => Fin.ext (by match a with | ⟨0, _⟩ => rfl | ⟨1, _⟩ => rfl | ⟨2, _⟩ => rfl)
theorem icpt_idx (b : Fin 32) (r : Fin 1024) : idx_main_v6 (ix3 b r (0 : Fin 1)) = (ix3 b r (2 : Fin 3) : S32x1024x3.Idx) :=
  funext fun a => Fin.ext (by match a with | ⟨0, _⟩ => rfl | ⟨1, _⟩ => rfl | ⟨2, _⟩ => rfl)

/-- The reference's result, as a function of the parameter array, is the score array. -/
theorem ref_eq_score (x : S32x1024x3.Idx → EReal) : val_main_v18 (F := Ideal) x = score x := by
  funext i
  obtain ⟨b, r, j, rfl⟩ : ∃ (b : Fin 32) (r : Fin 1024) (j : Fin 2047), i = ix3 b r j := ⟨i 0, i 1, i 2, eq_ix3 i⟩
  rw [val_main_v18_apply, val_main_v16_apply, val_main_v17_apply, val_main_v15_apply, val_main_v14_apply,
    val_main_v10_apply, val_main_v13_apply, val_main_v12_apply, val_main_v11_apply, val_main_cst_apply,
    val_main_v9_apply, val_main_v8_apply, val_main_v7_apply, val_main_v6_apply, val_main_v5_apply, val_main_v4_apply,
    val_main_v3_apply, val_main_v2_apply, val_main_v1_apply, val_main_v0_apply, val_main_c_apply]
  have e13 : idx_main_v13 (ix3 b r j) = idx_main_v9 (ix3 b r j) := rfl
  have e17 : idx_main_v17 (ix3 b r j) = idx_main_v9 (ix3 b r j) := rfl
  rw [e13, e17, col_idx, lane_idx, vec_idx, mean_idx, soft_idx, icpt_idx]
  rfl

end Cert.RefScore

end
-- ==== Proof.BodyScore.lean ====
/-
  One entry of a tile, from the kernel body's three loads.

  The body holds a tile of 8 × 128 rows. It loads the rows' means, softnesses and intercepts as three columns
  `v0, v1, v2 : [8, 128, 1]`, builds the positions `iota − 1023` along the lane axis, takes the reciprocal
  `1 / (v1 + ε)` on the column, and stores `v2 − ((pos + v0) · recip)²` with the columns broadcast along the lanes
  and the positions broadcast along the rows. So entry `(p, q, j)` of what it stores reads each column at `(p, q, 0)`
  and the position vector at `(0, 0, j)`: it is the reciprocal spelling of the score (`SpanScore.recip`) of row `(p, q)`
  of the tile at column `j`.
-/
import proofs.«151536_j73976516706635_2_alg».proof.Proof.Gen.KernelIdeal.Skeleton
import proofs.«151536_j73976516706635_2_alg».proof.Proof.SpanScore
import Idealize.ShloMosaic.Lib.Pipeline.Value
import Idealize.ShloMosaic.Lib.IdealHost

noncomputable section

namespace Cert.BodyScore

open Idealize.ShloMosaic Idealize.ShloMosaic.ValueIdx Cert.KernelIdeal Cert.KernelIdeal.Gen Cert.SpanScore

/-- A column broadcast along the lanes reads, at `(p, q, j)`, its entry `(p, q, 0)`. -/
theorem column_read {α : Type} (v : S8x128x1.Idx → α) (p : Fin 8) (q : Fin 128) (j : Fin 2047) :
    broadcastTo S8x128x2047 v broadcasts_S8x128x1_S8x128x2047 (ix3 p q j) = v (ix3 p q (0 : Fin 1)) :=
  broadcastTo_apply v _ _ _ (fun a => match a with
    | ⟨0, _⟩ => by show p.val = if (8 : Nat) = 1 then 0 else p.val; rw [if_neg (by decide)]
    | ⟨1, _⟩ => by show q.val = if (128 : Nat) = 1 then 0 else q.val; rw [if_neg (by decide)]
    | ⟨2, _⟩ => by show 0 = if (1 : Nat) = 1 then 0 else j.val; rw [if_pos rfl])

/-- A lane vector broadcast along the rows reads, at `(p, q, j)`, its entry `(0, 0, j)`. -/
theorem lane_read {α : Type} (v : S1x1x2047.Idx → α) (p : Fin 8) (q : Fin 128) (j : Fin 2047) :
    broadcastTo S8x128x2047 v broadcasts_S1x1x2047_S8x128x2047 (ix3 p q j) = v (ix3 (0 : Fin 1) (0 : Fin 1) j) :=
  broadcastTo_apply v _ _ _ (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show j.val = if (2047 : Nat) = 1 then 0 else j.val; rw [if_neg (by decide)])

/-- Lane `j` of the position vector `iota − 1023`, converted, is `pos j`. -/
theorem position_read (j : Fin 2047) :
    (sitofp (F := Ideal) .f32 (subi (iota .tc S1x1x2047 32 [2] iota_S1x1x2047_d2_w32) (broadcast S1x1x2047 1023#32)))
      (ix3 (0 : Fin 1) (0 : Fin 1) j) = pos j := by
  show FloatOps.sitofp (F := Ideal) .f32
    (IntOp.subi (iota .tc S1x1x2047 32 [2] iota_S1x1x2047_d2_w32 (ix3 (0 : Fin 1) (0 : Fin 1) j)) 1023#32) = _
  rw [iota_single_apply]
  rfl

/-- Row `(p, q)` of the reciprocal column: one over the row's softness plus `ε`. -/
theorem reciprocal_read (v1 : Vec Ideal S8x128x1 .f32) (p : Fin 8) (q : Fin 128) :
    (divf (broadcast S8x128x1 (FloatOps.ofBits (F := Ideal) .f32 0x3F800000#32))
      (addf v1 (broadcast S8x128x1 (FloatOps.ofBits (F := Ideal) .f32 0x3727C5AC#32)))) (ix3 p q (0 : Fin 1))
      = Ideal.div 1 (v1 (ix3 p q (0 : Fin 1)) + eps) := by
  show Ideal.div (Ideal.ofBits .f32 0x3F800000#32) (v1 (ix3 p q (0 : Fin 1)) + eps) = _
  rw [Ideal.ofBits_one_f32]

/-- ENTRY `(p, q, j)` OF WHAT THE BODY STORES, from its three loaded columns. -/
theorem body_entry (v0 v1 v2 : Vec Ideal S8x128x1 .f32) (p : Fin 8) (q : Fin 128) (j : Fin 2047) :
    k0_pay1 (F := Ideal) v0 v1 v2 (ix3 p q j)
      = recip (pos j + v0 (ix3 p q (0 : Fin 1))) (v1 (ix3 p q (0 : Fin 1)) + eps) (v2 (ix3 p q (0 : Fin 1))) := by
  unfold k0_pay1
  dsimp only
  rw [subf_apply, mulf_apply, mulf_apply, addf_apply, column_read, column_read, column_read, lane_read,
    position_read, reciprocal_read]
  rfl

end Cert.BodyScore

end
-- ==== Proof.ScoreArray.lean ====
/-
  From tiles to the whole score array.

  The grid has 4 × 8 points. Point `t` with block coordinates `(B, R)` stages rows `8B … 8B+7` × `128R … 128R+127` of
  the parameter array (all three parameters of each row) and writes back the same rows of the score array, every one of
  the 2047 columns. Entry `(p, q, j)` of the tile it writes is the reciprocal spelling of the score of row `(p, q)` of
  the staged block at column `j` (`tile_entry`), and that row is row `(8B + p, 128R + q)` of the parameter array
  (`staged_rows`): so what the point writes back is its block of the array `SpanScore.tiled` of the parameter array
  (`written_back`). Row `(b, r)` lies in the block of the point with coordinates `(b / 8, r / 128)`, so the blocks
  cover the array (`covered`), and after the run the result array is `tiled` of the argument (`result_array`, `run`).
-/
import proofs.«151536_j73976516706635_2_alg».proof.Proof.Gen.KernelIdeal.Value
import proofs.«151536_j73976516706635_2_alg».proof.Proof.BodyScore

noncomputable section

namespace Cert.ScoreArray

open Cert.KernelIdeal Cert.KernelIdeal.Gen Idealize.ShloMosaic Idealize.ShloMosaic.TcCoe Idealize.SL.Sem
open Idealize.ShloMosaic.ValueIdx Cert.SpanScore Cert.BodyScore
open Idealize.ShloMosaic.Pipeline (Dat)

/-! ## One tile -/

theorem zero_offsets : (![0, 0, 0] : Fin 3 → Nat) = fun _ => 0 := funext fun a => by fin_cases a <;> rfl

/-- Column `(p, q, 0)` of the body's load at offset `k` on the last axis is the staged block at `(p, q, k)`. -/
theorem mean_load (x0 : Vec Ideal S8x128x3 .f32) (p : Fin 8) (q : Fin 128) :
    View.ld x0 r0_0 (ix3 p q (0 : Fin 1)) = x0 (ix3 p q (0 : Fin 3)) :=
  congrArg x0 (funext fun a => Fin.ext (by
    match a with
    | ⟨0, _⟩ => show 0 + 1 * p.val = p.val; omega
    | ⟨1, _⟩ => show 0 + 1 * q.val = q.val; omega
    | ⟨2, _⟩ => show 0 + 1 * 0 = 0; omega))
theorem softness_load (x0 : Vec Ideal S8x128x3 .f32) (p : Fin 8) (q : Fin 128) :
    View.ld x0 r0_1 (ix3 p q (0 : Fin 1)) = x0 (ix3 p q (1 : Fin 3)) :=
  congrArg x0 (funext fun a => Fin.ext (by
    match a with
    | ⟨0, _⟩ => show 0 + 1 * p.val = p.val; omega
    | ⟨1, _⟩ => show 0 + 1 * q.val = q.val; omega
    | ⟨2, _⟩ => show 1 + 1 * 0 = 1; omega))
theorem intercept_load (x0 : Vec Ideal S8x128x3 .f32) (p : Fin 8) (q : Fin 128) :
    View.ld x0 r0_2 (ix3 p q (0 : Fin 1)) = x0 (ix3 p q (2 : Fin 3)) :=
  congrArg x0 (funext fun a => Fin.ext (by
    match a with
    | ⟨0, _⟩ => show 0 + 1 * p.val = p.val; omega
    | ⟨1, _⟩ => show 0 + 1 * q.val = q.val; omega
    | ⟨2, _⟩ => show 2 + 1 * 0 = 2; omega))

/-- ENTRY `(p, q, j)` OF THE TILE the body leaves, from the staged block `x0`. -/
theorem tile_entry (x0 : Vec Ideal S8x128x3 .f32) (p : Fin 8) (q : Fin 128) (j : Fin 2047) :
    out0_1 (F := Ideal) x0 (ix3 p q j)
      = recip (pos j + x0 (ix3 p q (0 : Fin 3))) (x0 (ix3 p q (1 : Fin 3)) + eps) (x0 (ix3 p q (2 : Fin 3))) := by
  unfold out0_1
  rw [View.canon_unit_zero zero_offsets, body_entry, mean_load, softness_load, intercept_load]

/-- `x0` holds rows `8B … 8B+7` × `128R … 128R+127` of `X`. -/
def HoldsRows (x0 : Vec Ideal S8x128x3 .f32) (X : PIdx → EReal) (B R : Nat) : Prop :=
  ∀ (p : Fin 8) (q : Fin 128) (k : Fin 3) (b : Fin 32) (r : Fin 1024),
    b.val = B * 8 + p.val → r.val = R * 128 + q.val → x0 (ix3 p q k) = X (ix3 b r k)

/-- THE TILE IS ITS BLOCK OF THE TILED ARRAY: if `x0` holds the rows of block `(B, R)` of `X` and `i` is the array
    index of tile entry `y` in that block, the tile at `y` is `tiled X` at `i`. -/
theorem tile_eq_tiled (x0 : Vec Ideal S8x128x3 .f32) (X : PIdx → EReal) (B R : Nat) (hx : HoldsRows x0 X B R)
    (y : S8x128x2047.Idx) (i : SIdx) (h0 : (i 0).val = B * 8 + (y 0).val) (h1 : (i 1).val = R * 128 + (y 1).val)
    (h2 : (i 2).val = (y 2).val) : out0_1 (F := Ideal) x0 y = tiled X i := by
  obtain ⟨p, q, j, rfl⟩ : ∃ (p : Fin 8) (q : Fin 128) (j : Fin 2047), y = ix3 p q j := ⟨y 0, y 1, y 2, eq_ix3 y⟩
  have hj : i 2 = j := Fin.ext h2
  rw [tile_entry]
  unfold tiled tiledAt divisor
  rw [hx p q 0 (i 0) (i 1) h0 h1, hx p q 1 (i 0) (i 1) h0 h1, hx p q 2 (i 0) (i 1) h0 h1, hj]

/-! ## The grid -/

variable (m : (ℓ : Loc nD τ sig) → Buf (Elt Ideal) ℓ) (ρ : Dev nD → PrngReg)

/-- The two index maps, decided over the 32 points: the parameter block moves with the score block on the two row axes,
    both are the one block of their last axis, and the block coordinates stay in the 4 × 8 grid. -/
theorem index_maps : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) ≤ 3 ∧ win0_1.index t (1 : Fin 3) ≤ 7 :=
  (by decide +kernel : ∀ t : Fin grid0.N, _)

/-- Every block coordinate pair is some point's. -/
theorem index_onto : ∀ (B : Fin 4) (R : Fin 8), ∃ t : Fin cfg0.N, win0_1.index t = ![B.val, R.val, 0] :=
  (by decide +kernel : ∀ (B : Fin 4) (R : Fin 8), ∃ t : Fin grid0.N, win0_1.index t = ![B.val, R.val, 0])

/-- The block staged at point `t` holds the rows of the point's block of the parameter array. -/
theorem staged_rows (c : Dev nD) (t : Fin cfg0.N) :
    HoldsRows (iblk m c 0 t) (V m c main_arg0) (win0_1.index t (0 : Fin 3)) (win0_1.index t (1 : Fin 3)) := by
  intro p q k b r hb hr
  obtain ⟨e0, e1, e2, -, -, -⟩ := index_maps t
  show V m c main_arg0 (((cfg0.win 0).blk t).view.emb (ix3 p q k)) = V m c main_arg0 (ix3 b r k)
  refine congrArg (V m c main_arg0) (funext fun a => Fin.ext ?_)
  match a with
  | ⟨0, _⟩ => show win0_0.index t (0 : Fin 3) * 8 + 1 * p.val = b.val; omega
  | ⟨1, _⟩ => show win0_0.index t (1 : Fin 3) * 128 + 1 * q.val = r.val; omega
  | ⟨2, _⟩ => show win0_0.index t (2 : Fin 3) * 3 + 1 * k.val = k.val; omega

/-- WHAT POINT `t` WRITES BACK is block `t` of the tiled array of the parameter array as the region finds it. -/
theorem written_back (c : Dev nD) (t : Fin cfg0.N) :
    (dats m 0 c).flushed 1 t = ((cfg0.win 1).blk t).view.read (Elt Ideal) (tiled (V m c main_arg0)) := by
  rw [Cert.KernelIdeal.Value.flushed1]
  obtain ⟨-, -, -, e3, -, -⟩ := index_maps t
  funext y
  show out0_1 (iblk m c 0 t) y = tiled (V m c main_arg0) (((cfg0.win 1).blk t).view.emb y)
  refine tile_eq_tiled (iblk m c 0 t) (V m c main_arg0) (win0_1.index t (0 : Fin 3)) (win0_1.index t (1 : Fin 3))
    (staged_rows m c t) y (((cfg0.win 1).blk t).view.emb y) ?_ ?_ ?_
  · show win0_1.index t (0 : Fin 3) * 8 + 1 * (y 0).val = _; omega
  · show win0_1.index t (1 : Fin 3) * 128 + 1 * (y 1).val = _; omega
  · show win0_1.index t (2 : Fin 3) * 2047 + 1 * (y 2).val = _; omega

/-- An index of the score array is in point `t`'s block iff each coordinate is in the block's range on its axis. -/
theorem mem_block (t : Fin cfg0.N) (i : S32x1024x2047.Idx) :
    i ∈ ((cfg0.win 1).blk t).view.set ↔ ∀ a : Fin 3, win0_1.index t a * S8x128x2047.size a ≤ (i a).val
      ∧ (i a).val < win0_1.index t a * S8x128x2047.size a + S8x128x2047.size a := by
  show i ∈ ((View.whole main_v0).slice (win0_1.rect t)).set ↔ _
  rw [View.set_slice_whole, Rect.mem_set_unit]
  exact Iff.rfl

/-- THE BLOCKS COVER THE ARRAY: row `(b, r)` is in the block of the point with coordinates `(b / 8, r / 128)`. -/
theorem covered (i : S32x1024x2047.Idx) :
    ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 2047 := (i 2).isLt
  obtain ⟨t, ht⟩ := index_onto ⟨(i 0).val / 8, by omega⟩ ⟨(i 1).val / 128, by omega⟩
  have q0 : win0_1.index t (0 : Fin 3) = (i 0).val / 8 := congrFun ht 0
  have q1 : win0_1.index t (1 : Fin 3) = (i 1).val / 128 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 128 ≤ (i 1).val ∧ (i 1).val < win0_1.index t (1 : Fin 3) * 128 + 128; omega
  | ⟨2, _⟩ => show win0_1.index t (2 : Fin 3) * 2047 ≤ (i 2).val ∧ (i 2).val < win0_1.index t (2 : Fin 3) * 2047 + 2047; omega

/-- THE RESULT ARRAY after the run is the tiled array of the argument. -/
theorem result_array (c : Dev nD) :
    (dats m 0 c).arrAt 1 cfg0.N = tiled (m ((c : Thread nD τ).loc main_arg0)) :=
  (dats m 0 c).arrAt_eq_of_cover 1 (tiled (V m c main_arg0)) (fun t _ => written_back m c t) covered

/-- The kernel's run, read: the result array is the tiled array of the argument, and the argument is unchanged. -/
theorem run : θ_run defs (onTc (τ := τ) (main (F := Ideal))) ⟨m, fun _ => 0, ρ⟩ fun r => ∀ c : Dev nD,
      r.2.mem ((c : Thread nD τ).loc main_v0) = tiled (m ((c : Thread nD τ).loc main_arg0))
      ∧ r.2.mem ((c : Thread nD τ).loc main_arg0) = m ((c : Thread nD τ).loc main_arg0) :=
  (θ_run defs _ _).mono (fun r h c => ⟨(h c).1.trans (result_array m c), (h c).2⟩)
    (Cert.KernelIdeal.Value.run_blocks m ρ)

end Cert.ScoreArray

end
-- ==== Proof.Divisor.lean ====
/-
  No row's divisor is zero, read off the precondition.

  The precondition is the conjunction of two `all`s over the parameter array `x`: every entry is finite, and every
  entry of the softness column plus `ε` differs from zero. The second `all` is a reduction by `and` of the comparison
  array to a single bit; that bit being 1, every compared pair differs — at row `(b, r)` the pair is
  `x(b,r,1) + ε` and `0`, which is the row's divisor (`SpanScore.divisor`) and zero.
-/
import proofs.«151536_j73976516706635_2_alg».proof.Proof.Gen.Pre_finite_inputs
import proofs.«151536_j73976516706635_2_alg».proof.Proof.SpanScore
import Idealize.ShloMosaic.Lib.ReduceAll
import Idealize.ShloMosaic.Lib.Pipeline.Value
import Idealize.ShloMosaic.Lib.IdealHost

noncomputable section

namespace Cert.Divisor

open Idealize.ShloMosaic Idealize.ShloMosaic.ValueIdx Cert.Pre_finite_inputs Cert.Pre_finite_inputs.Facts Cert.SpanScore

/-- The scalar shape has one index. -/
instance : Subsingleton S_.Idx := ⟨fun a b => funext fun d => d.elim0⟩

/-- Row `(b, r)` of the softness column is the parameter array at `(b, r, 1)`. -/
theorem softness_column (x : FVec Ideal S32x1024x3 .f32) (b : Fin 32) (r : Fin 1024) :
    extractStridedSlice S32x1024x1 ![0, 0, 1] x slices_S32x1024x3_S32x1024x1_0_0_1 (ix3 b r (0 : Fin 1))
      = x (ix3 b r (1 : Fin 3)) :=
  extractStridedSlice_apply _ x _ _ _ (fun a => match a with
    | ⟨0, _⟩ => by show b.val = 0 + b.val; omega
    | ⟨1, _⟩ => by show r.val = 0 + r.val; omega
    | ⟨2, _⟩ => by show 1 = 1 + 0; omega)

/-- UNDER THE PRECONDITION NO ROW'S DIVISOR IS ZERO. -/
theorem divisor_ne_zero (x : FVec Ideal S32x1024x3 .f32) (h : fn (F := Ideal) x = fun _ => 1#1) (b : Fin 32)
    (r : Fin 1024) : divisor x b r ≠ 0 := by
  have h0 := congrFun h ix0
  dsimp only [fn] at h0
  obtain ⟨-, h9⟩ := IntOp.andi_eq_one.1 h0
  have h8 := Host.reduce_andi_all _ _ _ _ _ h9 (ix3 b r (0 : Fin 1))
  have h8' : Ideal.cmp .une (x (ix3 b r (1 : Fin 3)) + eps) (Ideal.ofBits .f32 0x00000000#32) = 1#1 := by
    rw [← softness_column x b r]
    exact h8
  rw [Ideal.ofBits_zero_f32] at h8'
  intro hd
  unfold divisor at hd
  rw [hd] at h8'
  simp [Ideal.cmp] at h8'

end Cert.Divisor

end
-- ==== Proof.lean ====
/-
  The span score: a tiled kernel against its plain definition, on the extended reals.

  The argument is a parameter array `x : [32, 1024, 3]`; row `(b, r)` holds a mean, a softness and an intercept. The
  result is the score array `[32, 1024, 2047]`,

      score x (b, r, j) = −(q · q) + x(b,r,2),     q = (pos j + x(b,r,0)) / (x(b,r,1) + ε),     pos j = j − 1023,

  which is what the reference's operations compose to, entry by entry (Proof/RefScore.lean). The kernel walks a 4 × 8 grid
  of tiles of 8 × 128 rows; on each tile it takes the reciprocal `1 / (x(b,r,1) + ε)` once per row and writes
  `x(b,r,2) − (p · p)`, `p = (pos j + x(b,r,0)) · (1 / (x(b,r,1) + ε))` (Proof/BodyScore.lean, one entry of a tile;
  Proof/ScoreArray.lean, the tiles make up one array and cover it).

  The two spellings are one value wherever the divisor `x(b,r,1) + ε` is not zero: there `u / d = u · d⁻¹` and
  `1 / d = d⁻¹`, and `c − w = −w + c` (Proof/SpanScore.lean). At a zero divisor they differ (with `u = 0`: `0 · (1/0) = 0`
  but `0 / 0 = ⊥`), and there the reference itself divides by zero; the precondition therefore asks, besides finite
  entries, that no row's divisor is zero, and Proof/Divisor.lean reads that off it. Finiteness itself is not used.

  The three frames are the generated ones; the idealized kernel is the kernel's own text read on the extended reals, so
  nothing is owed for it.
-/
import proofs.«151536_j73976516706635_2_alg».proof.Defs
import proofs.«151536_j73976516706635_2_alg».proof.Proof.Gen.Kernel
import proofs.«151536_j73976516706635_2_alg».proof.Proof.Gen.Kernel.Skeleton
import proofs.«151536_j73976516706635_2_alg».proof.Proof.Gen.Kernel.Launch
import proofs.«151536_j73976516706635_2_alg».proof.Proof.Gen.Kernel.Points
import proofs.«151536_j73976516706635_2_alg».proof.Proof.Gen.Kernel.Frame
import proofs.«151536_j73976516706635_2_alg».proof.Proof.Gen.KernelIdeal
import proofs.«151536_j73976516706635_2_alg».proof.Proof.Gen.KernelIdeal.Skeleton
import proofs.«151536_j73976516706635_2_alg».proof.Proof.Gen.KernelIdeal.Launch
import proofs.«151536_j73976516706635_2_alg».proof.Proof.Gen.KernelIdeal.Points
import proofs.«151536_j73976516706635_2_alg».proof.Proof.Gen.KernelIdeal.Frame
import proofs.«151536_j73976516706635_2_alg».proof.Proof.Gen.ReferenceIdeal
import proofs.«151536_j73976516706635_2_alg».proof.Proof.Gen.Pre_finite_inputs
import proofs.«151536_j73976516706635_2_alg».proof.Proof.Gen.KernelIdeal.Value
import proofs.«151536_j73976516706635_2_alg».proof.Proof.Gen.ReferenceIdeal.Run
import proofs.«151536_j73976516706635_2_alg».proof.Proof.Gen.ReferenceIdeal.Read
import proofs.«151536_j73976516706635_2_alg».proof.Proof.SpanScore
import proofs.«151536_j73976516706635_2_alg».proof.Proof.RefScore
import proofs.«151536_j73976516706635_2_alg».proof.Proof.BodyScore
import proofs.«151536_j73976516706635_2_alg».proof.Proof.ScoreArray
import proofs.«151536_j73976516706635_2_alg».proof.Proof.Divisor
import Idealize.ShloMosaic.Adequacy
import Idealize.ShloMosaic.Init

noncomputable section

namespace Cert.Proof

open Idealize.ShloMosaic Idealize.ShloMosaic.TcCoe Idealize.SL.Sem

/-- The kernel as printed runs and leaves its argument as it was. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and leaves its argument as it was: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the score array of the argument: the kernel's tiles make up the reciprocal spelling, which
    is the score where no divisor is zero, as the precondition says; the reference's operations compose to the score. -/
theorem algebraic : Cert.algebraic_KernelIdeal_ReferenceIdeal := by
  intro m ρ m' ρ' hpre hagree
  refine ⟨fun c => Cert.SpanScore.score (m ((c : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩) (Cert.ScoreArray.run m ρ)
    exact Cert.SpanScore.tiled_eq_score _ (fun b r => Cert.Divisor.divisor_ne_zero _ (hpre c) b r)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.RefScore.ref_eq_score, hagree c]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
